-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x11 .f32) (main_arg1 : IVec S2x1600000 32) (main_arg2 : IVec S100000 32) (main_arg3 : FVec F S11x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x128 .f32 := Host.absf main_arg3
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x11 : Shape := ⟨2, ![10000, 11]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 129
  | .vmem => 25
  | .smem => 0
  | _ => 0

abbrev hbmTy0_0 (i : Nat) : BufTy := match i % 128 with
  | 0 => ⟨S100000x11, .f32⟩
  | 1 => ⟨S2x1600000, .i32⟩
  | 2 => ⟨S100000, .i32⟩
  | 3 => ⟨S11x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x128, .f32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S128x128, .f32⟩
  | 111 => ⟨S100000x1, .i32⟩
  | 112 => ⟨S128x128, .f32⟩
  | 113 => ⟨S_, .f32⟩
  | 114 => ⟨S100000, .f32⟩
  | 115 => ⟨S_, .f32⟩
  | 116 => ⟨S128, .f32⟩
  | 117 => ⟨S100000x1, .i32⟩
  | 118 => ⟨S128, .f32⟩
  | 119 => ⟨S_, .f32⟩
  | 120 => ⟨S128, .f32⟩
  | 121 => ⟨S128, .f32⟩
  | 122 => ⟨S128x1, .f32⟩
  | 123 => ⟨S128x128, .f32⟩
  | 124 => ⟨S128x128, .f32⟩
  | 125 => ⟨S1x128, .f32⟩
  | 126 => ⟨S1x128, .f32⟩
  | 127 => ⟨S1x1, .f32⟩
  | _ => ⟨S100000x11, .f32⟩

abbrev hbmTy0_1 (i : Nat) : BufTy := match i % 128 with
  | 0 => ⟨S128x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | .local _ .vmem, ⟨0, _⟩ => ⟨S10000x11, .f32⟩
  | .local _ .vmem, ⟨1, _⟩ => ⟨S10000x11, .f32⟩
  | .local _ .vmem, ⟨2, _⟩ => ⟨S11x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S128x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x11_S10000x11_0_0 : ∀ a, (![0, 0] : Fin 2 → Nat) a + S10000x11.size a ≤ S10000x11.size a
  h_S10000x11 : 0 < S10000x11.numel
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S1_S1x1 : S1.ShapeCasts S1x1
  shapeCasts_S128x128_S128x128 : S128x128.ShapeCasts S128x128
  broadcasts_S1x128_S128x128 : S1x128.Broadcasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x11_S11x128_S10000x128_1_0_0_1_n_n_wf : DotDims.WF S10000x11 S11x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x11.size a ≤ S100000x11.size a
  hwx0_0 : ∀ i : grid0.Coords, EltTy.bits .f32 = 32 ∨ (Rect.block (s := S100000x11) S10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x128.size a ≤ S128x128.size a
  hwx3_0 : ∀ i : grid3.Coords, EltTy.bits .f32 = 32 ∨ (Rect.block (s := S128x128) S128x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x1.size a ≤ S128x1.size a
  hwx3_7 : ∀ i : grid3.Coords, EltTy.bits .f32 = 32 ∨ (Rect.block (s := S128x1) S128x1.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x11_S11x128_S10000x128_1_0_0_1_n_n : DotDims S10000x11 S11x128 S10000x128 where
  lhsContracting := [1]
  rhsContracting := [0]
  lhsNonContracting := [0]
  rhsNonContracting := [1]
  lhsBatch := []
  rhsBatch := []
  wf := dot_S10000x11_S11x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v86) S128x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v90) S128x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S100000x11, .f32⟩
  | 1 => ⟨S2x1600000, .i32⟩
  | 2 => ⟨S100000, .i32⟩
  | 3 => ⟨S11x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S1700000x1, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S1700000x1, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S1700000x1, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128x128, .f32⟩
  | 123 => ⟨S100000x1, .i32⟩
  | 124 => ⟨S128x128, .f32⟩
  | 125 => ⟨S_, .f32⟩
  | 126 => ⟨S100000, .f32⟩
  | 127 => ⟨S_, .f32⟩
  | _ => ⟨S100000x11, .f32⟩

abbrev hbmTy0_1 (i : Nat) : BufTy := match i % 128 with
  | 0 => ⟨S128, .f32⟩
  | 1 => ⟨S100000x1, .i32⟩
  | 2 => ⟨S128, .f32⟩
  | 3 => ⟨S_, .f32⟩
  | 4 => ⟨S128, .f32⟩
  | 5 => ⟨S128, .f32⟩
  | 6 => ⟨S128x1, .f32⟩
  | 7 => ⟨S128x128, .f32⟩
  | 8 => ⟨S128x128, .f32⟩
  | 9 => ⟨S128x128, .f32⟩
  | 10 => ⟨S1x128, .f32⟩
  | 11 => ⟨S128x128, .f32⟩
  | 12 => ⟨S128x128, .f32⟩
  | 13 => ⟨S_, .f32⟩
  | 14 => ⟨S128x128, .f32⟩
  | 15 => ⟨S128x128, .f32⟩
  | 16 => ⟨S128x128, .f32⟩
  | 17 => ⟨S1x128, .f32⟩
  | 18 => ⟨S128x128, .f32⟩
  | 19 => ⟨S128x128, .f32⟩
  | 20 => ⟨S_, .f32⟩
  | 21 => ⟨S128x128, .f32⟩
  | 22 => ⟨S128x128, .f32⟩
  | 23 => ⟨S128x1, .f32⟩
  | 24 => ⟨S1x1, .f32⟩
  | 25 => ⟨S128x1, .f32⟩
  | 26 => ⟨S128x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_12 : Ref sig .tc := ⟨.hbm, 103, rfl⟩
abbrev main_v68 : Ref sig .tc := ⟨.hbm, 104, rfl⟩
abbrev main_v69 : Ref sig .tc := ⟨.hbm, 105, rfl⟩
abbrev main_c_13 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_15 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call3_cst : Ref sig .tc := ⟨.hbm, 141, rfl⟩
abbrev main_call3_v0 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_call4_cst : Ref sig .tc := ⟨.hbm, 148, rfl⟩
abbrev main_call4_v0 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x11_S11x128_S100000x128_1_0_0_1_n_n_wf : DotDims.WF S100000x11 S11x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.KRun.lean ====
/-
  The idealized kernel program's run, read at its last boundary.

  The program is ten segments: host operations, the first matmul region, host operations (gather, scale, scatter-add),
  the second region, host operations, the third region, host operations (gather, scale, scatter-add, bias, the pooling
  sums and the mean), the decoder region. The buffer contents at each boundary are a fold from the launch memory
  (`W0` … `W10`). Every weakly fair execution terminates, and at the end every unscoped TensorCore buffer holds what
  the last fold `W10` says. The frame (the arguments end unchanged) and the value of the result buffer are both
  read off this one statement.
-/
import proofs.«134059_j50757923504707_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every unscoped
    TensorCore buffer `b` of core `c` holds `W10 m ρ c b`: the launch over the ten segments, the last thread state
    read against the final state. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result buffer at the end is the decoder region's output array after its write-back, and the arguments are as
    launched. -/
theorem run_result : θ_run defs (onTc (τ := τ) (main (F := F))) ⟨m, fun _ => 0, ρ⟩ (fun r => ∀ c : Dev nD,
      r.2.mem ((c.tc : Thread nD τ).loc main_v90) = W10 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨h c _ (mem_uc main_v90 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)
    (run_last m ρ)

end Cert.KernelIdeal.Run

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.Spec.lean ====
/-
  The dense pieces of the network, entry by entry, over the extended reals.

  `mm x w` is the matrix product: entry (p, q) is the sum over k of x[p, k] · w[k, q].
  `biasRelu a b` adds the bias vector b along the last axis and clamps at zero: entry (p, q) is max (a[p, q] + b[q]) 0.
  `addBias a b` only adds the bias.
  A dense layer of the convolution stack is `mm (biasRelu a b) w`; the decoder is
  `addBias (mm (biasRelu (mm (biasRelu (mm g w₁) b₁) w₂) b₂) w₃) b₃`.
  Nothing here needs finiteness: both programs compute these same sums of the same terms.
-/
import Idealize.ShloMosaic.Lib.ValueIdx
import Idealize.ShloMosaic.PureOps.Ideal.Laws

noncomputable section

namespace Cert.Spec

open Idealize.ShloMosaic Idealize.ShloMosaic.ValueIdx

variable {M K N : Nat}

/-- The row coordinate of an entry of an [M, N] array, as a number below M. -/
abbrev row (i : (⟨2, ![M, N]⟩ : Shape).Idx) : Fin M := ⟨(i 0).val, idx2_lt0 i⟩
/-- The column coordinate of an entry of an [M, N] array, as a number below N. -/
abbrev col (i : (⟨2, ![M, N]⟩ : Shape).Idx) : Fin N := ⟨(i 1).val, idx2_lt1 i⟩

/-- The matrix product: entry (p, q) is the sum over k of x[p, k] · w[k, q]. -/
def mm (x : FVec Ideal ⟨2, ![M, K]⟩ .f32) (w : FVec Ideal ⟨2, ![K, N]⟩ .f32) : FVec Ideal ⟨2, ![M, N]⟩ .f32 :=
  fun i => ∑ k : Fin K, x (ix2 (row i) k) * w (ix2 k (col i))

/-- Bias along the last axis, then the clamp at zero: entry (p, q) is max (a[p, q] + b[q]) 0. -/
def biasRelu (a : FVec Ideal ⟨2, ![M, N]⟩ .f32) (b : FVec Ideal ⟨1, ![N]⟩ .f32) : FVec Ideal ⟨2, ![M, N]⟩ .f32 :=
  fun i => FloatOps.maximumf (FloatOps.addf (a i) (b (ix1 (col i)))) (FloatOps.ofBits .f32 0x00000000#32)

/-- Bias along the last axis: entry (p, q) is a[p, q] + b[q]. -/
def addBias (a : FVec Ideal ⟨2, ![M, N]⟩ .f32) (b : FVec Ideal ⟨1, ![N]⟩ .f32) : FVec Ideal ⟨2, ![M, N]⟩ .f32 :=
  fun i => FloatOps.addf (a i) (b (ix1 (col i)))

theorem mm_apply (x : FVec Ideal ⟨2, ![M, K]⟩ .f32) (w : FVec Ideal ⟨2, ![K, N]⟩ .f32) (p : Fin M) (q : Fin N) :
    mm x w (ix2 p q) = ∑ k : Fin K, x (ix2 p k) * w (ix2 k q) := rfl

theorem biasRelu_apply (a : FVec Ideal ⟨2, ![M, N]⟩ .f32) (b : FVec Ideal ⟨1, ![N]⟩ .f32) (p : Fin M) (q : Fin N) :
    biasRelu a b (ix2 p q) = FloatOps.maximumf (FloatOps.addf (a (ix2 p q)) (b (ix1 q))) (FloatOps.ofBits .f32 0x00000000#32) := rfl

theorem addBias_apply (a : FVec Ideal ⟨2, ![M, N]⟩ .f32) (b : FVec Ideal ⟨1, ![N]⟩ .f32) (p : Fin M) (q : Fin N) :
    addBias a b (ix2 p q) = FloatOps.addf (a (ix2 p q)) (b (ix1 q)) := rfl

end Cert.Spec

end
-- ==== Proof.Region0.lean ====
/-
  The first matmul region, read as one array.

  The region runs over ten grid points; point t stages rows 10000·t … 10000·t + 9999 of the left operand and the whole
  right operand, and writes back the product of that row block with the right operand as rows 10000·t … of the result.
  A row block of a product is the product of the row block, so the ten write-backs tile the result with the rows of the
  one product `mm x w`, whatever the arrays `x`, `w` the region finds at entry.
-/
import proofs.«134059_j50757923504707_1_alg».proof.Proof.Gen.KernelIdeal.Frame
import proofs.«134059_j50757923504707_1_alg».proof.Proof.LibDotRows
import proofs.«134059_j50757923504707_1_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the sum over k of the left block's [p, k] times the right
    operand's [k, q] (the change of float format is the identity over the extended reals, and the accumulator is zero). -/
theorem pay_apply (xb : Vec Ideal S10000x11 .f32) (wb : Vec Ideal S11x128 .f32) (p : Fin 10000) (q : Fin 128) :
    k0_pay1 (F := Ideal) xb wb (ix2 p q) = ∑ k : Fin 11, xb (ix2 p k) * wb (ix2 k q) := by
  unfold k0_pay1
  exact Cert.Lib.DotRows.matmul_plain_apply (φ₁ := .bf16) (φ₂ := .bf16) (truncf .bf16 xb bitsLt_bf16_f32) (truncf .bf16 wb bitsLt_bf16_f32) p q

/-- A block entry is an entry of the whole product, when the left block's row p is row r of the left operand. -/
theorem block_entry (x : FVec Ideal ⟨2, ![100000, 11]⟩ .f32) (w : FVec Ideal ⟨2, ![11, 128]⟩ .f32)
    (xb : Vec Ideal S10000x11 .f32) (wb : Vec Ideal S11x128 .f32) (p : Fin 10000) (q : Fin 128) (r : Fin 100000)
    (hx : ∀ k : Fin 11, xb (ix2 p k) = x (ix2 r k)) (hw : ∀ k : Fin 11, wb (ix2 k q) = w (ix2 k q)) :
    k0_pay1 (F := Ideal) xb wb (ix2 p q) = mm x w (ix2 r q) := by
  rw [pay_apply, mm_apply]
  exact Finset.sum_congr rfl fun k _ => by rw [hx k, hw k]

/-- The printed index maps over the grid: the left operand's and the result's blocks move down one block of rows per
    point; the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds. -/
theorem flushed_eq (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero hz]
  simp only [View.ld_unit_zero (S := S10000x11) hz, View.ld_unit_zero (S := S11x128) hz]
  obtain ⟨e00, e01, e10, e11, e20, e21⟩ := idx_facts t
  have hN : cfg0.N = 10 := N_0
  have ht : t.val < 10 := by have := t.isLt; omega
  funext j
  obtain ⟨p, q, rfl⟩ : ∃ (p : Fin 10000) (q : Fin 128), j = ix2 p q := ⟨j 0, j 1, eq_ix2 j⟩
  have hr : t.val * 10000 + p.val < 100000 := by have := p.isLt; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; rw [e20]; omega
    | ⟨1, _⟩ => show win0_2.index t (1 : Fin 2) * 128 + 1 * q.val = q.val; rw [e21]; omega
  show k0_pay1 (iblk0 V c 0 t) (iblk0 V c 1 t) (ix2 p q) = mm (V c main_arg0) (V c main_arg3) (((cfg0.win 2).blk t).view.emb (ix2 p q))
  rw [hemb]
  refine block_entry (V c main_arg0) (V c main_arg3) _ _ p q _ (fun k => ?_) (fun k => ?_)
  · show V c main_arg0 (((cfg0.win 0).blk t).view.emb (ix2 p k)) = V c main_arg0 (ix2 (⟨t.val * 10000 + p.val, hr⟩ : Fin 100000) k)
    refine congrArg _ ?_
    funext a; apply Fin.ext
    match a with
    | ⟨0, _⟩ => show win0_0.index t (0 : Fin 2) * 10000 + 1 * p.val = t.val * 10000 + p.val; rw [e00]; omega
    | ⟨1, _⟩ => show win0_0.index t (1 : Fin 2) * 11 + 1 * k.val = k.val; rw [e01]; omega
  · show V c main_arg3 (((cfg0.win 1).blk t).view.emb (ix2 k q)) = V c main_arg3 (ix2 k q)
    refine congrArg _ ?_
    funext a; apply Fin.ext
    match a with
    | ⟨0, _⟩ => show win0_1.index t (0 : Fin 2) * 11 + 1 * k.val = k.val; rw [e10]; omega
    | ⟨1, _⟩ => show win0_1.index t (1 : Fin 2) * 128 + 1 * q.val = q.val; rw [e11]; omega

/-- An index of the result is in point t's block iff its row is among the block's rows (and its lane in range). -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Every entry of the result is in the block of the point its row divided by 10000 names. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have hlt : (i 0).val / 10000 < cfg0.N := by rw [hN]; omega
  refine ⟨⟨(i 0).val / 10000, hlt⟩, flush0_2 _, ?_⟩
  obtain ⟨-, -, -, -, e20, e21⟩ := idx_facts ⟨(i 0).val / 10000, hlt⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    rw [e21]; omega

/-- After the region its result array is the product of the two arrays it found at entry. -/
theorem final (c : Dev nD) : (dat0 V c).arrAt 2 cfg0.N = mm (V c main_arg0) (V c main_arg3) :=
  (dat0 V c).arrAt_eq_of_cover 2 (mm (V c main_arg0) (V c main_arg3)) (fun t _ => flushed_eq V c t) cover

end Cert.KernelIdeal.Region0

end
-- ==== Proof.Region1.lean ====
/-
  A bias–clamp–matmul region of the convolution stack, read as one array.

  The region runs over ten grid points; point t stages rows 10000·t … 10000·t + 9999 of the aggregated activations,
  the whole bias row and the whole weight, and writes back (clamp at zero of (rows + bias)) times the weight as rows
  10000·t … of the result. Bias and clamp act entry by entry and a row block of a product is the product of the row
  block, so the ten write-backs tile the result with the rows of `mm (biasRelu a b) w`, for the arrays the region
  finds at entry (the bias row being the bias vector b laid out as one row).
-/
import proofs.«134059_j50757923504707_1_alg».proof.Proof.Gen.KernelIdeal.Frame
import proofs.«134059_j50757923504707_1_alg».proof.Proof.LibDotRows
import proofs.«134059_j50757923504707_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the sum over k of max (rows[p, k] + biasrow[0, k]) 0 times
    the weight's [k, q]. -/
theorem pay_apply (ab : FVec Ideal S10000x128 .f32) (bb : FVec Ideal S1x128 .f32) (wb : FVec Ideal S128x128 .f32) (p : Fin 10000) (q : Fin 128) :
    k1_pay1 (F := Ideal) ab bb wb (ix2 p q)
      = ∑ k : Fin 128, FloatOps.maximumf (F := Ideal) (FloatOps.addf (ab (ix2 p k)) (bb (ix2 (0 : Fin 1) k))) (FloatOps.ofBits .f32 0x00000000#32) * wb (ix2 k q) := by
  unfold k1_pay1
  refine (Cert.Lib.DotRows.matmul_plain_apply (φ₁ := .bf16) (φ₂ := .bf16) _ _ p q).trans ?_
  refine Finset.sum_congr rfl fun k _ => ?_
  show FloatOps.maximumf (F := Ideal) (FloatOps.addf (shapeCast S10000x128 ab shapeCasts_S10000x128_S10000x128 (ix2 p k))
      (broadcastTo S10000x128 (shapeCast S1x128 bb shapeCasts_S1x128_S1x128) broadcasts_S1x128_S10000x128 (ix2 p k))) _ * wb (ix2 k q) = _
  rw [shapeCast_self, shapeCast_self, broadcastTo_1b_ab_apply]
  rfl

/-- A block entry is an entry of the whole layer, when the block's row p is row r of the activations and the bias row
    is the bias vector. -/
theorem block_entry (a : FVec Ideal ⟨2, ![100000, 128]⟩ .f32) (b : FVec Ideal ⟨1, ![128]⟩ .f32) (w : FVec Ideal ⟨2, ![128, 128]⟩ .f32)
    (ab : FVec Ideal S10000x128 .f32) (bb : FVec Ideal S1x128 .f32) (wb : FVec Ideal S128x128 .f32) (p : Fin 10000) (q : Fin 128) (r : Fin 100000)
    (ha : ∀ k : Fin 128, ab (ix2 p k) = a (ix2 r k)) (hb : ∀ k : Fin 128, bb (ix2 (0 : Fin 1) k) = b (ix1 k))
    (hw : ∀ k : Fin 128, wb (ix2 k q) = w (ix2 k q)) :
    k1_pay1 (F := Ideal) ab bb wb (ix2 p q) = mm (biasRelu a b) w (ix2 r q) := by
  rw [pay_apply, mm_apply]
  exact Finset.sum_congr rfl fun k _ => by rw [ha k, hb k, hw k, biasRelu_apply]

/-- The printed index maps over the grid: the activations' and the result's blocks move down one block of rows per
    point; the bias row's and the weight's blocks stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer of the arrays the region finds. -/
theorem flushed_eq (c : Dev nD) (b : FVec Ideal ⟨1, ![128]⟩ .f32) (hb : ∀ k : Fin 128, V c main_v44 (ix2 (0 : Fin 1) k) = b (ix1 k)) (t : Fin cfg1.N) :
    (dat1 V c).flushed 3 t = ((cfg1.win 3).blk t).view.read (Elt Ideal) (mm (biasRelu (V c main_v43) b) (V c main_arg5)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  obtain ⟨e00, e01, e10, e11, e20, e21, e30, e31⟩ := idx_facts t
  have hN : cfg1.N = 10 := N_1
  have ht : t.val < 10 := by have := t.isLt; omega
  funext j
  obtain ⟨p, q, rfl⟩ : ∃ (p : Fin 10000) (q : Fin 128), j = ix2 p q := ⟨j 0, j 1, eq_ix2 j⟩
  have hr : t.val * 10000 + p.val < 100000 := by have := p.isLt; omega
  have hemb : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; rw [e30]; omega
    | ⟨1, _⟩ => show win1_3.index t (1 : Fin 2) * 128 + 1 * q.val = q.val; rw [e31]; omega
  show k1_pay1 (iblk1 V c 0 t) (iblk1 V c 1 t) (iblk1 V c 2 t) (ix2 p q)
    = mm (biasRelu (V c main_v43) b) (V c main_arg5) (((cfg1.win 3).blk t).view.emb (ix2 p q))
  rw [hemb]
  refine block_entry (V c main_v43) b (V c main_arg5) _ _ _ p q _ (fun k => ?_) (fun k => ?_) (fun k => ?_)
  · show V c main_v43 (((cfg1.win 0).blk t).view.emb (ix2 p k)) = V c main_v43 (ix2 (⟨t.val * 10000 + p.val, hr⟩ : Fin 100000) k)
    refine congrArg _ ?_
    funext a; apply Fin.ext
    match a with
    | ⟨0, _⟩ => show win1_0.index t (0 : Fin 2) * 10000 + 1 * p.val = t.val * 10000 + p.val; rw [e00]; omega
    | ⟨1, _⟩ => show win1_0.index t (1 : Fin 2) * 128 + 1 * k.val = k.val; rw [e01]; omega
  · refine Eq.trans ?_ (hb k)
    show V c main_v44 (((cfg1.win 1).blk t).view.emb (ix2 (0 : Fin 1) k)) = V c main_v44 (ix2 (0 : Fin 1) k)
    refine congrArg _ ?_
    funext a; apply Fin.ext
    match a with
    | ⟨0, _⟩ => show win1_1.index t (0 : Fin 2) * 1 + 1 * 0 = 0; rw [e10]
    | ⟨1, _⟩ => show win1_1.index t (1 : Fin 2) * 128 + 1 * k.val = k.val; rw [e11]; omega
  · show V c main_arg5 (((cfg1.win 2).blk t).view.emb (ix2 k q)) = V c main_arg5 (ix2 k q)
    refine congrArg _ ?_
    funext a; apply Fin.ext
    match a with
    | ⟨0, _⟩ => show win1_2.index t (0 : Fin 2) * 128 + 1 * k.val = k.val; rw [e20]; omega
    | ⟨1, _⟩ => show win1_2.index t (1 : Fin 2) * 128 + 1 * q.val = q.val; rw [e21]; omega

/-- An index of the result is in point t's block iff its row is among the block's rows (and its lane in range). -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v45).slice (win1_3.rect t)).set ↔ _
  rw [View.set_slice_whole, Rect.mem_set_unit]
  exact Iff.rfl

/-- Every entry of the result is in the block of the point its row divided by 10000 names. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  have hlt : (i 0).val / 10000 < cfg1.N := by rw [hN]; omega
  refine ⟨⟨(i 0).val / 10000, hlt⟩, flush1_3 _, ?_⟩
  obtain ⟨-, -, -, -, -, -, e30, e31⟩ := idx_facts ⟨(i 0).val / 10000, hlt⟩
  rw [mem_blk]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, hlt⟩ (1 : Fin 2) * 128 ≤ (i 1).val ∧ (i 1).val < win1_3.index ⟨(i 0).val / 10000, hlt⟩ (1 : Fin 2) * 128 + 128
    rw [e31]; omega

/-- After the region its result array is the layer of the arrays it found at entry: the activations, the bias vector
    whose row layout the region reads, and the weight. -/
theorem final (c : Dev nD) (b : FVec Ideal ⟨1, ![128]⟩ .f32) (hb : ∀ k : Fin 128, V c main_v44 (ix2 (0 : Fin 1) k) = b (ix1 k)) :
    (dat1 V c).arrAt 3 cfg1.N = mm (biasRelu (V c main_v43) b) (V c main_arg5) :=
  (dat1 V c).arrAt_eq_of_cover 3 (mm (biasRelu (V c main_v43) b) (V c main_arg5)) (fun t _ => flushed_eq V c b hb t) cover

end Cert.KernelIdeal.Region1

end
-- ==== Proof.Region2.lean ====
/-
  A bias–clamp–matmul region of the convolution stack, read as one array.

  The region runs over ten grid points; point t stages rows 10000·t … 10000·t + 9999 of the aggregated activations,
  the whole bias row and the whole weight, and writes back (clamp at zero of (rows + bias)) times the weight as rows
  10000·t … of the result. Bias and clamp act entry by entry and a row block of a product is the product of the row
  block, so the ten write-backs tile the result with the rows of `mm (biasRelu a b) w`, for the arrays the region
  finds at entry (the bias row being the bias vector b laid out as one row).
-/
import proofs.«134059_j50757923504707_1_alg».proof.Proof.Gen.KernelIdeal.Frame
import proofs.«134059_j50757923504707_1_alg».proof.Proof.LibDotRows
import proofs.«134059_j50757923504707_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the sum over k of max (rows[p, k] + biasrow[0, k]) 0 times
    the weight's [k, q]. -/
theorem pay_apply (ab : FVec Ideal S10000x128 .f32) (bb : FVec Ideal S1x128 .f32) (wb : FVec Ideal S128x128 .f32) (p : Fin 10000) (q : Fin 128) :
    k2_pay1 (F := Ideal) ab bb wb (ix2 p q)
      = ∑ k : Fin 128, FloatOps.maximumf (F := Ideal) (FloatOps.addf (ab (ix2 p k)) (bb (ix2 (0 : Fin 1) k))) (FloatOps.ofBits .f32 0x00000000#32) * wb (ix2 k q) := by
  unfold k2_pay1
  refine (Cert.Lib.DotRows.matmul_plain_apply (φ₁ := .bf16) (φ₂ := .bf16) _ _ p q).trans ?_
  refine Finset.sum_congr rfl fun k _ => ?_
  show FloatOps.maximumf (F := Ideal) (FloatOps.addf (shapeCast S10000x128 ab shapeCasts_S10000x128_S10000x128 (ix2 p k))
      (broadcastTo S10000x128 (shapeCast S1x128 bb shapeCasts_S1x128_S1x128) broadcasts_S1x128_S10000x128 (ix2 p k))) _ * wb (ix2 k q) = _
  rw [shapeCast_self, shapeCast_self, broadcastTo_1b_ab_apply]
  rfl

/-- A block entry is an entry of the whole layer, when the block's row p is row r of the activations and the bias row
    is the bias vector. -/
theorem block_entry (a : FVec Ideal ⟨2, ![100000, 128]⟩ .f32) (b : FVec Ideal ⟨1, ![128]⟩ .f32) (w : FVec Ideal ⟨2, ![128, 128]⟩ .f32)
    (ab : FVec Ideal S10000x128 .f32) (bb : FVec Ideal S1x128 .f32) (wb : FVec Ideal S128x128 .f32) (p : Fin 10000) (q : Fin 128) (r : Fin 100000)
    (ha : ∀ k : Fin 128, ab (ix2 p k) = a (ix2 r k)) (hb : ∀ k : Fin 128, bb (ix2 (0 : Fin 1) k) = b (ix1 k))
    (hw : ∀ k : Fin 128, wb (ix2 k q) = w (ix2 k q)) :
    k2_pay1 (F := Ideal) ab bb wb (ix2 p q) = mm (biasRelu a b) w (ix2 r q) := by
  rw [pay_apply, mm_apply]
  exact Finset.sum_congr rfl fun k _ => by rw [ha k, hb k, hw k, biasRelu_apply]

/-- The printed index maps over the grid: the activations' and the result's blocks move down one block of rows per
    point; the bias row's and the weight's blocks stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer of the arrays the region finds. -/
theorem flushed_eq (c : Dev nD) (b : FVec Ideal ⟨1, ![128]⟩ .f32) (hb : ∀ k : Fin 128, V c main_v58 (ix2 (0 : Fin 1) k) = b (ix1 k)) (t : Fin cfg2.N) :
    (dat2 V c).flushed 3 t = ((cfg2.win 3).blk t).view.read (Elt Ideal) (mm (biasRelu (V c main_v57) b) (V c main_arg7)) := by
  show (cfg2.win 3).cut (grid2.coords t) ((dat2 V c).after 3 t) = _
  rw [after2_3]
  unfold out2_3
  rw [View.canon_unit_zero hz]
  simp only [View.ld_unit_zero (S := S10000x128) hz, View.ld_unit_zero (S := S1x128) hz, View.ld_unit_zero (S := S128x128) hz]
  obtain ⟨e00, e01, e10, e11, e20, e21, e30, e31⟩ := idx_facts t
  have hN : cfg2.N = 10 := N_2
  have ht : t.val < 10 := by have := t.isLt; omega
  funext j
  obtain ⟨p, q, rfl⟩ : ∃ (p : Fin 10000) (q : Fin 128), j = ix2 p q := ⟨j 0, j 1, eq_ix2 j⟩
  have hr : t.val * 10000 + p.val < 100000 := by have := p.isLt; omega
  have hemb : ((cfg2.win 3).blk t).view.emb (ix2 p q) = ix2 (⟨t.val * 10000 + p.val, hr⟩ : Fin 100000) q := by
    funext a; apply Fin.ext
    match a with
    | ⟨0, _⟩ => show win2_3.index t (0 : Fin 2) * 10000 + 1 * p.val = t.val * 10000 + p.val; rw [e30]; omega
    | ⟨1, _⟩ => show win2_3.index t (1 : Fin 2) * 128 + 1 * q.val = q.val; rw [e31]; omega
  show k2_pay1 (iblk2 V c 0 t) (iblk2 V c 1 t) (iblk2 V c 2 t) (ix2 p q)
    = mm (biasRelu (V c main_v57) b) (V c main_arg7) (((cfg2.win 3).blk t).view.emb (ix2 p q))
  rw [hemb]
  refine block_entry (V c main_v57) b (V c main_arg7) _ _ _ p q _ (fun k => ?_) (fun k => ?_) (fun k => ?_)
  · show V c main_v57 (((cfg2.win 0).blk t).view.emb (ix2 p k)) = V c main_v57 (ix2 (⟨t.val * 10000 + p.val, hr⟩ : Fin 100000) k)
    refine congrArg _ ?_
    funext a; apply Fin.ext
    match a with
    | ⟨0, _⟩ => show win2_0.index t (0 : Fin 2) * 10000 + 1 * p.val = t.val * 10000 + p.val; rw [e00]; omega
    | ⟨1, _⟩ => show win2_0.index t (1 : Fin 2) * 128 + 1 * k.val = k.val; rw [e01]; omega
  · refine Eq.trans ?_ (hb k)
    show V c main_v58 (((cfg2.win 1).blk t).view.emb (ix2 (0 : Fin 1) k)) = V c main_v58 (ix2 (0 : Fin 1) k)
    refine congrArg _ ?_
    funext a; apply Fin.ext
    match a with
    | ⟨0, _⟩ => show win2_1.index t (0 : Fin 2) * 1 + 1 * 0 = 0; rw [e10]
    | ⟨1, _⟩ => show win2_1.index t (1 : Fin 2) * 128 + 1 * k.val = k.val; rw [e11]; omega
  · show V c main_arg7 (((cfg2.win 2).blk t).view.emb (ix2 k q)) = V c main_arg7 (ix2 k q)
    refine congrArg _ ?_
    funext a; apply Fin.ext
    match a with
    | ⟨0, _⟩ => show win2_2.index t (0 : Fin 2) * 128 + 1 * k.val = k.val; rw [e20]; omega
    | ⟨1, _⟩ => show win2_2.index t (1 : Fin 2) * 128 + 1 * q.val = q.val; rw [e21]; omega

/-- An index of the result is in point t's block iff its row is among the block's rows (and its lane in range). -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v59).slice (win2_3.rect t)).set ↔ _
  rw [View.set_slice_whole, Rect.mem_set_unit]
  exact Iff.rfl

/-- Every entry of the result is in the block of the point its row divided by 10000 names. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  have hlt : (i 0).val / 10000 < cfg2.N := by rw [hN]; omega
  refine ⟨⟨(i 0).val / 10000, hlt⟩, flush2_3 _, ?_⟩
  obtain ⟨-, -, -, -, -, -, e30, e31⟩ := idx_facts ⟨(i 0).val / 10000, hlt⟩
  rw [mem_blk]
  intro a
  match a with
  | ⟨0, _⟩ =>
    show win2_3.index ⟨(i 0).val / 10000, hlt⟩ (0 : Fin 2) * 10000 ≤ (i 0).val ∧ (i 0).val < win2_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win2_3.index ⟨(i 0).val / 10000, hlt⟩ (1 : Fin 2) * 128 ≤ (i 1).val ∧ (i 1).val < win2_3.index ⟨(i 0).val / 10000, hlt⟩ (1 : Fin 2) * 128 + 128
    rw [e31]; omega

/-- After the region its result array is the layer of the arrays it found at entry: the activations, the bias vector
    whose row layout the region reads, and the weight. -/
theorem final (c : Dev nD) (b : FVec Ideal ⟨1, ![128]⟩ .f32) (hb : ∀ k : Fin 128, V c main_v58 (ix2 (0 : Fin 1) k) = b (ix1 k)) :
    (dat2 V c).arrAt 3 cfg2.N = mm (biasRelu (V c main_v57) b) (V c main_arg7) :=
  (dat2 V c).arrAt_eq_of_cover 3 (mm (biasRelu (V c main_v57) b) (V c main_arg7)) (fun t _ => flushed_eq V c b hb t) cover

end Cert.KernelIdeal.Region2

end
-- ==== Proof.Region3.lean ====
/-
  The decoder region, read as one array.

  One grid point: every window's block is its whole array. The body computes, for the pooled features g,
  h₁ = max (g·W₁ + b₁) 0, h₂ = max (h₁·W₂ + b₂) 0, out = h₂·W₃ + b₃, each product into a zero accumulator and each
  change of float format the identity over the extended reals; the biases are read as one-row arrays.
  So the result array is `addBias (mm (biasRelu (mm (biasRelu (mm g W₁) b₁) W₂) b₂) W₃) b₃` of the arrays the
  region finds at entry.
-/
import proofs.«134059_j50757923504707_1_alg».proof.Proof.Gen.KernelIdeal.Frame
import proofs.«134059_j50757923504707_1_alg».proof.Proof.LibDotRows
import proofs.«134059_j50757923504707_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.Region3

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

variable {M K N : Nat}

/-- A product into the zero accumulator, its operands passed through the (identity) change of format, is `mm`. -/
theorem matmul_eq_mm (x : FVec Ideal ⟨2, ![M, K]⟩ .f32) (w : FVec Ideal ⟨2, ![K, N]⟩ .f32)
    (h1 : FTy.bf16.bits < FTy.f32.bits) (h2 : FTy.bf16.bits < FTy.f32.bits) :
    matmul (F := Ideal) (DotDims.plain M K N) none (truncf .bf16 x h1) (truncf .bf16 w h2) (constant ⟨2, ![M, N]⟩ .f32 0x00000000#32) = mm x w := by
  funext j
  obtain ⟨p, q, rfl⟩ : ∃ (p : Fin M) (q : Fin N), j = ix2 p q := ⟨j 0, j 1, eq_ix2 j⟩
  exact Cert.Lib.DotRows.matmul_plain_apply (φ₁ := .bf16) (φ₂ := .bf16) (truncf .bf16 x h1) (truncf .bf16 w h2) p q

/-- A one-row bias broadcast over the rows and added is `addBias` of the bias vector the row lays out. -/
theorem addRow_eq (a : FVec Ideal ⟨2, ![M, N]⟩ .f32) (brow : FVec Ideal ⟨2, ![1, N]⟩ .f32) (b : FVec Ideal ⟨1, ![N]⟩ .f32)
    (hb : ∀ k : Fin N, brow (ix2 (0 : Fin 1) k) = b (ix1 k)) (h : (⟨2, ![1, N]⟩ : Shape).Broadcasts ⟨2, ![M, N]⟩) :
    addf a (broadcastTo ⟨2, ![M, N]⟩ brow h) = addBias a b := by
  funext j
  obtain ⟨p, q, rfl⟩ : ∃ (p : Fin M) (q : Fin N), j = ix2 p q := ⟨j 0, j 1, eq_ix2 j⟩
  show FloatOps.addf (a (ix2 p q)) (broadcastTo ⟨2, ![M, N]⟩ brow h (ix2 p q)) = _
  rw [broadcastTo_1b_ab_apply, hb q, addBias_apply]

/-- The same followed by the clamp at zero is `biasRelu`. -/
theorem addRowRelu_eq (a : FVec Ideal ⟨2, ![M, N]⟩ .f32) (brow : FVec Ideal ⟨2, ![1, N]⟩ .f32) (b : FVec Ideal ⟨1, ![N]⟩ .f32)
    (hb : ∀ k : Fin N, brow (ix2 (0 : Fin 1) k) = b (ix1 k)) (h : (⟨2, ![1, N]⟩ : Shape).Broadcasts ⟨2, ![M, N]⟩) :
    maximumf (addf a (broadcastTo ⟨2, ![M, N]⟩ brow h)) (broadcast ⟨2, ![M, N]⟩ (Scalar.ofBits .f32 0x00000000#32)) = biasRelu a b := by
  funext j
  obtain ⟨p, q, rfl⟩ : ∃ (p : Fin M) (q : Fin N), j = ix2 p q := ⟨j 0, j 1, eq_ix2 j⟩
  show FloatOps.maximumf (FloatOps.addf (a (ix2 p q)) (broadcastTo ⟨2, ![M, N]⟩ brow h (ix2 p q))) _ = _
  rw [broadcastTo_1b_ab_apply, hb q, biasRelu_apply]
  rfl

theorem dims1 : dot_S128x128_S128x128_S128x128_1_0_0_1_n_n = DotDims.plain 128 128 128 := rfl
theorem dims2 : dot_S128x128_S128x1_S128x1_1_0_0_1_n_n = DotDims.plain 128 128 1 := rfl

/-- The body's stored value as one function of its seven loaded arrays, the bias rows laying out bias vectors. -/
theorem pay_eq (g w1 : Vec Ideal S128x128 .f32) (b1row : Vec Ideal S1x128 .f32) (w2 : Vec Ideal S128x128 .f32) (b2row : Vec Ideal S1x128 .f32)
    (wo : Vec Ideal S128x1 .f32) (borow : Vec Ideal S1x1 .f32)
    (b1 b2 : FVec Ideal ⟨1, ![128]⟩ .f32) (bo : FVec Ideal ⟨1, ![1]⟩ .f32)
    (h1 : ∀ k : Fin 128, b1row (ix2 (0 : Fin 1) k) = b1 (ix1 k)) (h2 : ∀ k : Fin 128, b2row (ix2 (0 : Fin 1) k) = b2 (ix1 k))
    (ho : ∀ k : Fin 1, borow (ix2 (0 : Fin 1) k) = bo (ix1 k)) :
    k3_pay1 (F := Ideal) g w1 b1row w2 b2row wo borow = addBias (mm (biasRelu (mm (biasRelu (mm g w1) b1) w2) b2) wo) bo := by
  unfold k3_pay1
  dsimp only
  simp only [dims1, dims2, shapeCast_self]
  rw [matmul_eq_mm, addRowRelu_eq _ _ b1 h1, matmul_eq_mm, addRowRelu_eq _ _ b2 h2, matmul_eq_mm, addRow_eq _ _ bo ho]

/-- The one point's block indices are all zero. -/
theorem idx_facts : ∀ t : Fin cfg3.N, (∀ a : Fin 2, win3_0.index t a = 0) ∧ (∀ a : Fin 2, win3_1.index t a = 0) ∧ (∀ a : Fin 2, win3_2.index t a = 0)
    ∧ (∀ a : Fin 2, win3_3.index t a = 0) ∧ (∀ a : Fin 2, win3_4.index t a = 0) ∧ (∀ a : Fin 2, win3_5.index t a = 0)
    ∧ (∀ a : Fin 2, win3_6.index t a = 0) ∧ (∀ a : Fin 2, win3_7.index t a = 0) :=
  (by decide +kernel : ∀ t : Fin grid3.N, _)

/-- The decoder as one function of its arrays. -/
def dec (g w1 : FVec Ideal ⟨2, ![128, 128]⟩ .f32) (b1 : FVec Ideal ⟨1, ![128]⟩ .f32) (w2 : FVec Ideal ⟨2, ![128, 128]⟩ .f32)
    (b2 : FVec Ideal ⟨1, ![128]⟩ .f32) (wo : FVec Ideal ⟨2, ![128, 1]⟩ .f32) (bo : FVec Ideal ⟨1, ![1]⟩ .f32) : FVec Ideal ⟨2, ![128, 1]⟩ .f32 :=
  addBias (mm (biasRelu (mm (biasRelu (mm g w1) b1) w2) b2) wo) bo

/-- The body's stored value at an entry is the decoder's, when the loaded blocks are the arrays entry by entry and the
    bias rows lay out the bias vectors. -/
theorem block_entry (G W1 : FVec Ideal ⟨2, ![128, 128]⟩ .f32) (b1 : FVec Ideal ⟨1, ![128]⟩ .f32) (W2 : FVec Ideal ⟨2, ![128, 128]⟩ .f32)
    (b2 : FVec Ideal ⟨1, ![128]⟩ .f32) (WO : FVec Ideal ⟨2, ![128, 1]⟩ .f32) (bo : FVec Ideal ⟨1, ![1]⟩ .f32)
    (g w1 : FVec Ideal S128x128 .f32) (b1row : FVec Ideal S1x128 .f32) (w2 : FVec Ideal S128x128 .f32) (b2row : FVec Ideal S1x128 .f32)
    (wo : FVec Ideal S128x1 .f32) (borow : FVec Ideal S1x1 .f32)
    (hg : ∀ p k : Fin 128, g (ix2 p k) = G (ix2 p k)) (hw1 : ∀ p k : Fin 128, w1 (ix2 p k) = W1 (ix2 p k))
    (h1 : ∀ k : Fin 128, b1row (ix2 (0 : Fin 1) k) = b1 (ix1 k))
    (hw2 : ∀ p k : Fin 128, w2 (ix2 p k) = W2 (ix2 p k)) (h2 : ∀ k : Fin 128, b2row (ix2 (0 : Fin 1) k) = b2 (ix1 k))
    (hwo : ∀ (p : Fin 128) (k : Fin 1), wo (ix2 p k) = WO (ix2 p k)) (ho : ∀ k : Fin 1, borow (ix2 (0 : Fin 1) k) = bo (ix1 k))
    (p : Fin 128) (q : Fin 1) :
    k3_pay1 (F := Ideal) g w1 b1row w2 b2row wo borow (ix2 p q) = dec G W1 b1 W2 b2 WO bo (ix2 p q) := by
  have eg : g = G := funext fun j => by
    obtain ⟨p, k, rfl⟩ : ∃ (p k : Fin 128), j = ix2 p k := ⟨j 0, j 1, eq_ix2 j⟩
    exact hg p k
  have ew1 : w1 = W1 := funext fun j => by
    obtain ⟨p, k, rfl⟩ : ∃ (p k : Fin 128), j = ix2 p k := ⟨j 0, j 1, eq_ix2 j⟩
    exact hw1 p k
  have ew2 : w2 = W2 := funext fun j => by
    obtain ⟨p, k, rfl⟩ : ∃ (p k : Fin 128), j = ix2 p k := ⟨j 0, j 1, eq_ix2 j⟩
    exact hw2 p k
  have ewo : wo = WO := funext fun j => by
    obtain ⟨p, k, rfl⟩ : ∃ (p : Fin 128) (k : Fin 1), j = ix2 p k := ⟨j 0, j 1, eq_ix2 j⟩
    exact hwo p k
  subst eg ew1 ew2 ewo
  rw [pay_eq g w1 b1row w2 b2row wo borow b1 b2 bo h1 h2 ho]
  rfl

/-- What the one point writes back is the decoder of the arrays the region finds (its block is the whole result). -/
theorem flushed_eq (c : Dev nD) (b1 b2 : FVec Ideal ⟨1, ![128]⟩ .f32) (bo : FVec Ideal ⟨1, ![1]⟩ .f32)
    (h1 : ∀ k : Fin 128, V c main_v87 (ix2 (0 : Fin 1) k) = b1 (ix1 k)) (h2 : ∀ k : Fin 128, V c main_v88 (ix2 (0 : Fin 1) k) = b2 (ix1 k))
    (ho : ∀ k : Fin 1, V c main_v89 (ix2 (0 : Fin 1) k) = bo (ix1 k)) (t : Fin cfg3.N) :
    (dat3 V c).flushed 7 t = ((cfg3.win 7).blk t).view.read (Elt Ideal)
      (dec (V c main_v86) (V c main_arg9) b1 (V c main_arg11) b2 (V c main_arg13) bo) := by
  show (cfg3.win 7).cut (grid3.coords t) ((dat3 V c).after 7 t) = _
  rw [after3_7]
  unfold out3_7
  rw [View.canon_unit_zero hz]
  simp only [View.ld_unit_zero (S := S128x128) hz, View.ld_unit_zero (S := S1x128) hz, View.ld_unit_zero (S := S128x1) hz, View.ld_unit_zero (S := S1x1) hz]
  obtain ⟨e0, e1, e2, e3, e4, e5, e6, e7⟩ := idx_facts t
  funext j
  obtain ⟨p, q, rfl⟩ : ∃ (p : Fin 128) (q : Fin 1), j = ix2 p q := ⟨j 0, j 1, eq_ix2 j⟩
  have hemb : ((cfg3.win 7).blk t).view.emb (ix2 p q) = ix2 p q := by
    funext a; apply Fin.ext
    match a with
    | ⟨0, _⟩ => show win3_7.index t (0 : Fin 2) * 128 + 1 * p.val = p.val; rw [e7 0]; omega
    | ⟨1, _⟩ => show win3_7.index t (1 : Fin 2) * 1 + 1 * q.val = q.val; rw [e7 1]; omega
  show k3_pay1 (iblk3 V c 0 t) (iblk3 V c 1 t) (iblk3 V c 2 t) (iblk3 V c 3 t) (iblk3 V c 4 t) (iblk3 V c 5 t) (iblk3 V c 6 t) (ix2 p q)
    = dec (V c main_v86) (V c main_arg9) b1 (V c main_arg11) b2 (V c main_arg13) bo (((cfg3.win 7).blk t).view.emb (ix2 p q))
  rw [hemb]
  refine block_entry (V c main_v86) (V c main_arg9) b1 (V c main_arg11) b2 (V c main_arg13) bo _ _ _ _ _ _ _
    (fun p k => ?_) (fun p k => ?_) (fun k => ?_) (fun p k => ?_) (fun k => ?_) (fun p k => ?_) (fun k => ?_) p q
  · show V c main_v86 (((cfg3.win 0).blk t).view.emb (ix2 p k)) = V c main_v86 (ix2 p k)
    refine congrArg _ ?_
    funext a; apply Fin.ext
    match a with
    | ⟨0, _⟩ => show win3_0.index t (0 : Fin 2) * 128 + 1 * p.val = p.val; rw [e0 0]; omega
    | ⟨1, _⟩ => show win3_0.index t (1 : Fin 2) * 128 + 1 * k.val = k.val; rw [e0 1]; omega
  · show V c main_arg9 (((cfg3.win 1).blk t).view.emb (ix2 p k)) = V c main_arg9 (ix2 p k)
    refine congrArg _ ?_
    funext a; apply Fin.ext
    match a with
    | ⟨0, _⟩ => show win3_1.index t (0 : Fin 2) * 128 + 1 * p.val = p.val; rw [e1 0]; omega
    | ⟨1, _⟩ => show win3_1.index t (1 : Fin 2) * 128 + 1 * k.val = k.val; rw [e1 1]; omega
  · refine Eq.trans ?_ (h1 k)
    show V c main_v87 (((cfg3.win 2).blk t).view.emb (ix2 (0 : Fin 1) k)) = V c main_v87 (ix2 (0 : Fin 1) k)
    refine congrArg _ ?_
    funext a; apply Fin.ext
    match a with
    | ⟨0, _⟩ => show win3_2.index t (0 : Fin 2) * 1 + 1 * 0 = 0; rw [e2 0]
    | ⟨1, _⟩ => show win3_2.index t (1 : Fin 2) * 128 + 1 * k.val = k.val; rw [e2 1]; omega
  · show V c main_arg11 (((cfg3.win 3).blk t).view.emb (ix2 p k)) = V c main_arg11 (ix2 p k)
    refine congrArg _ ?_
    funext a; apply Fin.ext
    match a with
    | ⟨0, _⟩ => show win3_3.index t (0 : Fin 2) * 128 + 1 * p.val = p.val; rw [e3 0]; omega
    | ⟨1, _⟩ => show win3_3.index t (1 : Fin 2) * 128 + 1 * k.val = k.val; rw [e3 1]; omega
  · refine Eq.trans ?_ (h2 k)
    show V c main_v88 (((cfg3.win 4).blk t).view.emb (ix2 (0 : Fin 1) k)) = V c main_v88 (ix2 (0 : Fin 1) k)
    refine congrArg _ ?_
    funext a; apply Fin.ext
    match a with
    | ⟨0, _⟩ => show win3_4.index t (0 : Fin 2) * 1 + 1 * 0 = 0; rw [e4 0]
    | ⟨1, _⟩ => show win3_4.index t (1 : Fin 2) * 128 + 1 * k.val = k.val; rw [e4 1]; omega
  · show V c main_arg13 (((cfg3.win 5).blk t).view.emb (ix2 p k)) = V c main_arg13 (ix2 p k)
    refine congrArg _ ?_
    funext a; apply Fin.ext
    match a with
    | ⟨0, _⟩ => show win3_5.index t (0 : Fin 2) * 128 + 1 * p.val = p.val; rw [e5 0]; omega
    | ⟨1, _⟩ => show win3_5.index t (1 : Fin 2) * 1 + 1 * k.val = k.val; rw [e5 1]; omega
  · refine Eq.trans ?_ (ho k)
    show V c main_v89 (((cfg3.win 6).blk t).view.emb (ix2 (0 : Fin 1) k)) = V c main_v89 (ix2 (0 : Fin 1) k)
    refine congrArg _ ?_
    funext a; apply Fin.ext
    match a with
    | ⟨0, _⟩ => show win3_6.index t (0 : Fin 2) * 1 + 1 * 0 = 0; rw [e6 0]
    | ⟨1, _⟩ => show win3_6.index t (1 : Fin 2) * 1 + 1 * k.val = k.val; rw [e6 1]; omega

/-- An index of the result is in the one point's block. -/
theorem cover (i : S128x1.Idx) : ∃ t : Fin cfg3.N, (cfg3.win 7).flush t = true ∧ i ∈ ((cfg3.win 7).blk t).view.set := by
  have hi0 : (i 0).val < 128 := (i 0).isLt
  have hi1 : (i 1).val < 1 := (i 1).isLt
  refine ⟨t3_0, flush3_7 t3_0, ?_⟩
  obtain ⟨-, -, -, -, -, -, -, e7⟩ := idx_facts t3_0
  show i ∈ ((View.whole main_v90).slice (win3_7.rect t3_0)).set
  rw [View.set_slice_whole, Rect.mem_set_unit]
  intro a
  match a with
  | ⟨0, _⟩ =>
    show win3_7.index t3_0 (0 : Fin 2) * 128 ≤ (i 0).val ∧ (i 0).val < win3_7.index t3_0 (0 : Fin 2) * 128 + 128
    rw [e7 0]; omega
  | ⟨1, _⟩ =>
    show win3_7.index t3_0 (1 : Fin 2) * 1 ≤ (i 1).val ∧ (i 1).val < win3_7.index t3_0 (1 : Fin 2) * 1 + 1
    rw [e7 1]; omega

/-- After the region its result array is the decoder of the arrays it found at entry, the three bias rows laying out
    the bias vectors b1, b2, bo. -/
theorem final (c : Dev nD) (b1 b2 : FVec Ideal ⟨1, ![128]⟩ .f32) (bo : FVec Ideal ⟨1, ![1]⟩ .f32)
    (h1 : ∀ k : Fin 128, V c main_v87 (ix2 (0 : Fin 1) k) = b1 (ix1 k)) (h2 : ∀ k : Fin 128, V c main_v88 (ix2 (0 : Fin 1) k) = b2 (ix1 k))
    (ho : ∀ k : Fin 1, V c main_v89 (ix2 (0 : Fin 1) k) = bo (ix1 k)) :
    (dat3 V c).arrAt 7 cfg3.N = dec (V c main_v86) (V c main_arg9) b1 (V c main_arg11) b2 (V c main_arg13) bo :=
  (dat3 V c).arrAt_eq_of_cover 7 (dec (V c main_v86) (V c main_arg9) b1 (V c main_arg11) b2 (V c main_arg13) bo)
    (fun t _ => flushed_eq V c b1 b2 bo h1 h2 ho t) cover

end Cert.KernelIdeal.Region3

end
-- ==== Proof.RefSpec.lean ====
/-
  The reference program's stages, regrouped.

  The reference computes, for node features x, edge list e, graph ids, and the weights:
    h₁ = agg (x·W₁),  h₂ = agg (max (h₁ + b₁) 0 · W₂),  h₃ = agg (max (h₂ + b₂) 0 · W₄),
    g = pool (h₃ + b₄),  out = (max (max (g·Wd₁ + bd₁) 0 · Wd₂ + bd₂) 0)·Wo + bo,
  where `agg` gathers rows by source node, scales them by the symmetric normalisation and scatter-adds them by
  destination node, and `pool` is the per-graph mean. `agg` and `pool` are kept as the reference spells them (they
  are the same host operations in both programs and are never opened); the dense parts are restated through `mm`,
  `biasRelu`, `addBias` entry by entry, a host product being the sum over the contracted axis.
-/
import proofs.«134059_j50757923504707_1_alg».proof.Proof.RefRead
import proofs.«134059_j50757923504707_1_alg».proof.Proof.Spec

noncomputable section

namespace Cert.ReferenceIdeal.Regroup

open Cert.ReferenceIdeal Cert.ReferenceIdeal.ReadP Cert.Spec
open Idealize.ShloMosaic Idealize.ShloMosaic.TcCoe Idealize.ShloMosaic.ValueIdx

/-- The normalised aggregation of node rows `h` along the edges `x1` (with self loops): gather by source, scale, scatter-add by
    destination. -/
def agg (h : FVec Ideal S100000x128 .f32) (x1 : (⟨S2x1600000, .i32⟩ : BufTy).Contents (Elt Ideal)) : FVec Ideal S100000x128 .f32 :=
  Host.scatterAdd (F := Ideal) scatter_S100000x128_S1700000x1_S1700000x128_1_0_0_1 (val_main_v41 (F := Ideal)) (val_main_v42 (F := Ideal) x1)
    (mulf (F := Ideal) (val_main_v39 (F := Ideal) x1) (Host.gather gather_S100000x128_S1700000x1_S1700000x128_1_0_n_n_0_1_1128 h (val_main_v37 (F := Ideal) x1)))

/-- The per-graph mean of node rows `h` plus the last convolution bias `x8`, over the graph ids `x2`. -/
def pool (h : FVec Ideal S100000x128 .f32) (x8 : (⟨S128, .f32⟩ : BufTy).Contents (Elt Ideal))
    (x2 : (⟨S100000, .i32⟩ : BufTy).Contents (Elt Ideal)) : FVec Ideal S128x128 .f32 :=
  Host.divf (F := Ideal) (Host.scatterAdd (F := Ideal) scatter_S128x128_S100000x1_S100000x128_1_0_0_1 (val_main_v83 (F := Ideal)) (val_main_v84 (F := Ideal) x2)
    (addf (F := Ideal) h (val_main_v81 (F := Ideal) x8))) (val_main_v93 (F := Ideal) x2)

theorem v43_eq (x0 : (⟨S100000x11, .f32⟩ : BufTy).Contents (Elt Ideal)) (x1 : (⟨S2x1600000, .i32⟩ : BufTy).Contents (Elt Ideal)) (x3 : (⟨S11x128, .f32⟩ : BufTy).Contents (Elt Ideal)) : val_main_v43 (F := Ideal) x0 x1 x3 = agg (val_main_v30 (F := Ideal) x0 x3) x1 := rfl

theorem v61_eq (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) : val_main_v61 (F := Ideal) x0 x1 x3 x4 x5 = agg (val_main_v48 (F := Ideal) x0 x1 x3 x4 x5) x1 := rfl

theorem v79_eq (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) : val_main_v79 (F := Ideal) x0 x1 x3 x4 x5 x6 x7 = agg (val_main_v66 (F := Ideal) x0 x1 x3 x4 x5 x6 x7) x1 := rfl

theorem v94_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v94 (F := Ideal) x0 x1 x2 x3 x4 x5 x6 x7 x8 = pool (val_main_v79 (F := Ideal) x0 x1 x3 x4 x5 x6 x7) x8 x2 := rfl

/-- The first host product is `mm`. -/
theorem v30_eq (x0 : (⟨S100000x11, .f32⟩ : BufTy).Contents (Elt Ideal)) (x3 : (⟨S11x128, .f32⟩ : BufTy).Contents (Elt Ideal)) : val_main_v30 (F := Ideal) x0 x3 = mm x0 x3 := by
  funext i
  obtain ⟨p, q, rfl⟩ : ∃ (p : Fin 100000) (q : Fin 128), i = ix2 p q := ⟨i 0, i 1, eq_ix2 i⟩
  rw [val_main_v30_apply, mm_apply]
  refine Finset.sum_congr rfl fun k _ => ?_
  have el : lidx_main_v30 (ix2 p q) k = ix2 p k := funext fun a => by match a with | ⟨0, _⟩ => rfl | ⟨1, _⟩ => rfl
  have er : ridx_main_v30 (ix2 p q) k = ix2 k q := funext fun a => by match a with | ⟨0, _⟩ => rfl | ⟨1, _⟩ => rfl
  rw [el, er]

/-- The second layer: bias, clamp, product. -/
theorem v48_eq (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) :
    val_main_v48 (F := Ideal) x0 x1 x3 x4 x5 = mm (biasRelu (val_main_v43 (F := Ideal) x0 x1 x3) x4) x5 := by
  funext i
  obtain ⟨p, q, rfl⟩ : ∃ (p : Fin 100000) (q : Fin 128), i = ix2 p q := ⟨i 0, i 1, eq_ix2 i⟩
  rw [val_main_v48_apply, mm_apply]
  refine Finset.sum_congr rfl fun k _ => ?_
  have el : lidx_main_v48 (ix2 p q) k = ix2 p k := funext fun a => by match a with | ⟨0, _⟩ => rfl | ⟨1, _⟩ => rfl
  have er : ridx_main_v48 (ix2 p q) k = ix2 k q := funext fun a => by match a with | ⟨0, _⟩ => rfl | ⟨1, _⟩ => rfl
  have eb : idx_main_v44 (idx_main_v45 (ix2 p k)) = ix1 k := funext fun a => by match a with | ⟨0, _⟩ => rfl
  rw [el, er, val_main_v47_apply, val_main_v46_apply, val_main_v45_apply, val_main_v44_apply, val_main_call1_v0_apply,
    val_main_call1_cst_apply, eb, biasRelu_apply]

/-- The third layer: bias, clamp, product. -/
theorem v66_eq (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v66 (F := Ideal) x0 x1 x3 x4 x5 x6 x7 = mm (biasRelu (val_main_v61 (F := Ideal) x0 x1 x3 x4 x5) x6) x7 := by
  funext i
  obtain ⟨p, q, rfl⟩ : ∃ (p : Fin 100000) (q : Fin 128), i = ix2 p q := ⟨i 0, i 1, eq_ix2 i⟩
  rw [val_main_v66_apply, mm_apply]
  refine Finset.sum_congr rfl fun k _ => ?_
  have el : lidx_main_v66 (ix2 p q) k = ix2 p k := funext fun a => by match a with | ⟨0, _⟩ => rfl | ⟨1, _⟩ => rfl
  have er : ridx_main_v66 (ix2 p q) k = ix2 k q := funext fun a => by match a with | ⟨0, _⟩ => rfl | ⟨1, _⟩ => rfl
  have eb : idx_main_v62 (idx_main_v63 (ix2 p k)) = ix1 k := funext fun a => by match a with | ⟨0, _⟩ => rfl
  rw [el, er, val_main_v65_apply, val_main_v64_apply, val_main_v63_apply, val_main_v62_apply, val_main_call2_v0_apply,
    val_main_call2_cst_apply, eb, biasRelu_apply]

/-- The decoder's first product is `mm`. -/
theorem v95_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v95 (F := Ideal) x0 x1 x2 x3 x4 x5 x6 x7 x8 x9 = mm (val_main_v94 (F := Ideal) x0 x1 x2 x3 x4 x5 x6 x7 x8) x9 := by
  funext i
  obtain ⟨p, q, rfl⟩ : ∃ (p : Fin 128) (q : Fin 128), i = ix2 p q := ⟨i 0, i 1, eq_ix2 i⟩
  rw [val_main_v95_apply, mm_apply]
  refine Finset.sum_congr rfl fun k _ => ?_
  have el : lidx_main_v95 (ix2 p q) k = ix2 p k := funext fun a => by match a with | ⟨0, _⟩ => rfl | ⟨1, _⟩ => rfl
  have er : ridx_main_v95 (ix2 p q) k = ix2 k q := funext fun a => by match a with | ⟨0, _⟩ => rfl | ⟨1, _⟩ => rfl
  rw [el, er]

/-- The decoder's first bias and clamp. -/
theorem v99_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v99 (F := Ideal) x0 x1 x2 x3 x4 x5 x6 x7 x8 x9 x10 = biasRelu (val_main_v95 (F := Ideal) x0 x1 x2 x3 x4 x5 x6 x7 x8 x9) x10 := by
  funext i
  obtain ⟨p, q, rfl⟩ : ∃ (p : Fin 128) (q : Fin 128), i = ix2 p q := ⟨i 0, i 1, eq_ix2 i⟩
  have eb : idx_main_v96 (idx_main_v97 (ix2 p q)) = ix1 q := funext fun a => by match a with | ⟨0, _⟩ => rfl
  rw [val_main_v99_apply, val_main_v98_apply, val_main_v97_apply, val_main_v96_apply, val_main_call3_v0_apply,
    val_main_call3_cst_apply, eb, biasRelu_apply]

/-- The decoder's second product is `mm`. -/
theorem v100_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v100 (F := Ideal) x0 x1 x2 x3 x4 x5 x6 x7 x8 x9 x10 x11 = mm (val_main_v99 (F := Ideal) x0 x1 x2 x3 x4 x5 x6 x7 x8 x9 x10) x11 := by
  funext i
  obtain ⟨p, q, rfl⟩ : ∃ (p : Fin 128) (q : Fin 128), i = ix2 p q := ⟨i 0, i 1, eq_ix2 i⟩
  rw [val_main_v100_apply, mm_apply]
  refine Finset.sum_congr rfl fun k _ => ?_
  have el : lidx_main_v100 (ix2 p q) k = ix2 p k := funext fun a => by match a with | ⟨0, _⟩ => rfl | ⟨1, _⟩ => rfl
  have er : ridx_main_v100 (ix2 p q) k = ix2 k q := funext fun a => by match a with | ⟨0, _⟩ => rfl | ⟨1, _⟩ => rfl
  rw [el, er]

/-- The decoder's second bias and clamp. -/
theorem v104_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v104 (F := Ideal) x0 x1 x2 x3 x4 x5 x6 x7 x8 x9 x10 x11 x12 = biasRelu (val_main_v100 (F := Ideal) x0 x1 x2 x3 x4 x5 x6 x7 x8 x9 x10 x11) x12 := by
  funext i
  obtain ⟨p, q, rfl⟩ : ∃ (p : Fin 128) (q : Fin 128), i = ix2 p q := ⟨i 0, i 1, eq_ix2 i⟩
  have eb : idx_main_v101 (idx_main_v102 (ix2 p q)) = ix1 q := funext fun a => by match a with | ⟨0, _⟩ => rfl
  rw [val_main_v104_apply, val_main_v103_apply, val_main_v102_apply, val_main_v101_apply, val_main_call4_v0_apply,
    val_main_call4_cst_apply, eb, biasRelu_apply]

/-- The decoder's last product is `mm`. -/
theorem v105_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) :
    val_main_v105 (F := Ideal) x0 x1 x2 x3 x4 x5 x6 x7 x8 x9 x10 x11 x12 x13 = mm (val_main_v104 (F := Ideal) x0 x1 x2 x3 x4 x5 x6 x7 x8 x9 x10 x11 x12) x13 := by
  funext i
  obtain ⟨p, q, rfl⟩ : ∃ (p : Fin 128) (q : Fin 1), i = ix2 p q := ⟨i 0, i 1, eq_ix2 i⟩
  rw [val_main_v105_apply, mm_apply]
  refine Finset.sum_congr rfl fun k _ => ?_
  have el : lidx_main_v105 (ix2 p q) k = ix2 p k := funext fun a => by match a with | ⟨0, _⟩ => rfl | ⟨1, _⟩ => rfl
  have er : ridx_main_v105 (ix2 p q) k = ix2 k q := funext fun a => by match a with | ⟨0, _⟩ => rfl | ⟨1, _⟩ => rfl
  rw [el, er]

/-- The decoder's last bias. -/
theorem v108_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) :
    val_main_v108 (F := Ideal) x0 x1 x2 x3 x4 x5 x6 x7 x8 x9 x10 x11 x12 x13 x14 = addBias (val_main_v105 (F := Ideal) x0 x1 x2 x3 x4 x5 x6 x7 x8 x9 x10 x11 x12 x13) x14 := by
  funext i
  obtain ⟨p, q, rfl⟩ : ∃ (p : Fin 128) (q : Fin 1), i = ix2 p q := ⟨i 0, i 1, eq_ix2 i⟩
  have eb : idx_main_v106 (idx_main_v107 (ix2 p q)) = ix1 q := funext fun a => by
    match a with | ⟨0, _⟩ => exact Fin.ext (by have := q.isLt; show 0 = q.val; omega)
  rw [val_main_v108_apply, val_main_v107_apply, val_main_v106_apply, eb, addBias_apply]

/-- THE REFERENCE'S RESULT, regrouped: three rounds of product, aggregation, bias and clamp; the pooled mean; the decoder. -/
theorem out_eq (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) :
    val_main_v108 (F := Ideal) x0 x1 x2 x3 x4 x5 x6 x7 x8 x9 x10 x11 x12 x13 x14
      = addBias (mm (biasRelu (mm (biasRelu (mm (pool (agg (mm (biasRelu (agg (mm (biasRelu (agg (mm x0 x3) x1) x4) x5) x1) x6) x7) x1) x8 x2) x9) x10) x11) x12) x13) x14 := by
  rw [v108_eq, v105_eq, v104_eq, v100_eq, v99_eq, v95_eq, v94_eq, v79_eq, v66_eq, v61_eq, v48_eq, v43_eq, v30_eq]

end Cert.ReferenceIdeal.Regroup

end
-- ==== Proof.KVals.lean ====
/-
  The kernel program's buffers, boundary by boundary.

  Read from the launch memory forwards: the host operations before the first region build the edge lists with self loops
  and the normalisation column from the edge list alone; the first region leaves x·W₁; the host operations that follow
  gather its rows by source, scale them and scatter-add them by destination (the aggregation `agg`); the second region
  leaves max (agg + b₁) 0 · W₂; and so on through the third region, the pooled mean, and the decoder. Every host stretch
  is the same list of operations the reference applies, so each buffer is read as the reference's own stage function
  of the stage before it, and nothing of a gather or a scatter is opened.
-/
import proofs.«134059_j50757923504707_1_alg».proof.Proof.Gen.KernelIdeal.Frame
import proofs.«134059_j50757923504707_1_alg».proof.Proof.Region0
import proofs.«134059_j50757923504707_1_alg».proof.Proof.Region1
import proofs.«134059_j50757923504707_1_alg».proof.Proof.Region2
import proofs.«134059_j50757923504707_1_alg».proof.Proof.Region3
import proofs.«134059_j50757923504707_1_alg».proof.Proof.RefSpec
import Idealize.ShloMosaic.Lib.StableHlo.Run
import Idealize.ShloMosaic.Lib.ValueLayout

set_option maxRecDepth 16384

noncomputable section

open Idealize.ShloMosaic Idealize.ShloMosaic.TcCoe Idealize.ShloMosaic.ValueIdx Idealize.SL.Sem

namespace Cert.KernelIdeal.Chain

open Cert.KernelIdeal Cert.KernelIdeal.Gen Cert.Spec

variable (m : (ℓ : Loc nD τ sig) → Buf (Elt Ideal) ℓ) (ρ : Dev nD → PrngReg) (c : Dev nD)

/-! ## Before the first region: the arguments as launched, the edge lists and the normalisation column -/

theorem w3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem w3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem w3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem w3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem w3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem w3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl
theorem w3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl
theorem w3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl
theorem w3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl
theorem w3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl
theorem w3_arg11 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp <;> rfl
theorem w3_arg12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  after_results_simp <;> rfl
theorem w3_arg13 : W3 m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  after_results_simp <;> rfl
theorem w3_arg14 : W3 m ρ c (Proc.devRef .tc main_arg14) = (m ((c : Thread nD τ).loc main_arg14)) := by
  show StableHlo.after hostOps0_2 (StableHlo.after hostOps0_1 (StableHlo.after hostOps0 (W0 m ρ c))) (Proc.devRef .tc main_arg14) = _
  after_results_simp <;> rfl

set_option maxHeartbeats 4000000 in
/-- The source nodes with self loops appended. -/
theorem w3_v3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
/-- The destination nodes with self loops appended. -/
theorem w3_v6 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

set_option maxHeartbeats 4000000 in
/-- The source nodes with self loops appended, already after the first stretch of host operations. -/
theorem w1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  rfl

set_option maxHeartbeats 4000000 in
/-- The destination nodes with self loops appended, already after the first stretch. -/
theorem w1_v6 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results_simp
  rfl

set_option maxHeartbeats 4000000 in
/-- Which nodes have a positive degree (the degree is the scatter-add of ones by destination). -/
theorem w1_v12 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp
  rfl

set_option maxHeartbeats 4000000 in
/-- The inverse square root of the degrees. -/
theorem w1_v13 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp
  rfl

/-- The zero that replaces the inverse square root where the degree is zero. -/
theorem w1_cst2 : W1 m ρ c (Proc.devRef .tc main_cst_2) = constant (F := Ideal) S_ .f32 0x00000000#32 := by
  show StableHlo.after hostOps0 (W0 m ρ c) (Proc.devRef .tc main_cst_2) = _
  after_results_simp <;> rfl

/-- The source nodes, unchanged by the selection of the inverse square roots. -/
theorem w2_v3 : W2 m ρ c (Proc.devRef .tc main_v3) = Cert.ReferenceIdeal.ReadP.val_main_v3 (F := Ideal) (m ((c : Thread nD τ).loc main_arg1)) := by
  show StableHlo.after hostOps0_1 (W1 m ρ c) (Proc.devRef .tc main_v3) = _
  have h := w1_v3 m ρ c
  generalize W1 m ρ c = X at h ⊢
  after_results_simp
  exact h

/-- The destination nodes, unchanged by the selection of the inverse square roots. -/
theorem w2_v6 : W2 m ρ c (Proc.devRef .tc main_v6) = Cert.ReferenceIdeal.ReadP.val_main_v6 (F := Ideal) (m ((c : Thread nD τ).loc main_arg1)) := by
  show StableHlo.after hostOps0_1 (W1 m ρ c) (Proc.devRef .tc main_v6) = _
  have h := w1_v6 m ρ c
  generalize W1 m ρ c = X at h ⊢
  after_results_simp
  exact h

/-- The selection step alone, from any contents `X`: where the flag is set take the second operand, elsewhere the zero. -/
theorem sel_eval (X : Valuation τ sig (Elt Ideal)) (v12 : (⟨S100000, .i1⟩ : BufTy).Contents (Elt Ideal))
    (v13 : (⟨S100000, .f32⟩ : BufTy).Contents (Elt Ideal))
    (h12 : X (Proc.devRef .tc main_v12) = v12) (h13 : X (Proc.devRef .tc main_v13) = v13)
    (hc : X (Proc.devRef .tc main_cst_2) = constant (F := Ideal) S_ .f32 0x00000000#32) :
    StableHlo.after hostOps0_1 X (Proc.devRef .tc main_v14)
      = select v12 v13 (broadcastInDim S100000 ![] bcast_S_S100000 (id (constant (F := Ideal) S_ .f32 0x00000000#32))) := by
  after_results_simp
  rw [h12, h13, hc]
  rfl

/-- The inverse square roots of the degrees where the degree is positive, zero elsewhere. -/
theorem w2_v14 : W2 m ρ c (Proc.devRef .tc main_v14) = Cert.ReferenceIdeal.ReadP.val_main_v14 (F := Ideal) (m ((c : Thread nD τ).loc main_arg1)) :=
  (sel_eval (W1 m ρ c) _ _ (w1_v12 m ρ c) (w1_v13 m ρ c) (w1_cst2 m ρ c)).trans
    (show select (Cert.ReferenceIdeal.ReadP.val_main_v12 (F := Ideal) (m ((c : Thread nD τ).loc main_arg1))) (Cert.ReferenceIdeal.ReadP.val_main_v13 (F := Ideal) (m ((c : Thread nD τ).loc main_arg1)))
        (broadcastInDim S100000 ![] bcast_S_S100000 (id (constant (F := Ideal) S_ .f32 0x00000000#32)))
      = Cert.ReferenceIdeal.ReadP.val_main_v14 (F := Ideal) (m ((c : Thread nD τ).loc main_arg1)) from rfl)

set_option maxHeartbeats 4000000 in
/-- The normalisation column: for each edge the product of the selected inverse square roots of its end nodes' degrees,
    read from the three facts above through the remaining host operations. -/
theorem w3_v30 : W3 m ρ c (Proc.devRef .tc main_v30) = Cert.ReferenceIdeal.ReadP.val_main_v31 (F := Ideal) (m ((c : Thread nD τ).loc main_arg1)) := by
  show StableHlo.after hostOps0_2 (W2 m ρ c) (Proc.devRef .tc main_v30) = _
  have h3 := w2_v3 m ρ c
  have h6 := w2_v6 m ρ c
  have h14 := w2_v14 m ρ c
  generalize W2 m ρ c = X at h3 h6 h14 ⊢
  after_results_simp
  rw [h3, h6, h14]
  rfl

/-! ## A buffer a region does not touch keeps its contents through the region -/

theorem w4_arg2 : W4 m ρ c (no_index (Proc.devRef .tc main_arg2)) = (m ((c : Thread nD τ).loc main_arg2)) := (W4_of_ne m ρ c main_arg2 (by decide)).trans (w3_arg2 m ρ c)
theorem w4_arg4 : W4 m ρ c (no_index (Proc.devRef .tc main_arg4)) = (m ((c : Thread nD τ).loc main_arg4)) := (W4_of_ne m ρ c main_arg4 (by decide)).trans (w3_arg4 m ρ c)
theorem w4_arg5 : W4 m ρ c (no_index (Proc.devRef .tc main_arg5)) = (m ((c : Thread nD τ).loc main_arg5)) := (W4_of_ne m ρ c main_arg5 (by decide)).trans (w3_arg5 m ρ c)
theorem w4_arg6 : W4 m ρ c (no_index (Proc.devRef .tc main_arg6)) = (m ((c : Thread nD τ).loc main_arg6)) := (W4_of_ne m ρ c main_arg6 (by decide)).trans (w3_arg6 m ρ c)
theorem w4_arg7 : W4 m ρ c (no_index (Proc.devRef .tc main_arg7)) = (m ((c : Thread nD τ).loc main_arg7)) := (W4_of_ne m ρ c main_arg7 (by decide)).trans (w3_arg7 m ρ c)
theorem w4_arg8 : W4 m ρ c (no_index (Proc.devRef .tc main_arg8)) = (m ((c : Thread nD τ).loc main_arg8)) := (W4_of_ne m ρ c main_arg8 (by decide)).trans (w3_arg8 m ρ c)
theorem w4_arg9 : W4 m ρ c (no_index (Proc.devRef .tc main_arg9)) = (m ((c : Thread nD τ).loc main_arg9)) := (W4_of_ne m ρ c main_arg9 (by decide)).trans (w3_arg9 m ρ c)
theorem w4_arg10 : W4 m ρ c (no_index (Proc.devRef .tc main_arg10)) = (m ((c : Thread nD τ).loc main_arg10)) := (W4_of_ne m ρ c main_arg10 (by decide)).trans (w3_arg10 m ρ c)
theorem w4_arg11 : W4 m ρ c (no_index (Proc.devRef .tc main_arg11)) = (m ((c : Thread nD τ).loc main_arg11)) := (W4_of_ne m ρ c main_arg11 (by decide)).trans (w3_arg11 m ρ c)
theorem w4_arg12 : W4 m ρ c (no_index (Proc.devRef .tc main_arg12)) = (m ((c : Thread nD τ).loc main_arg12)) := (W4_of_ne m ρ c main_arg12 (by decide)).trans (w3_arg12 m ρ c)
theorem w4_arg13 : W4 m ρ c (no_index (Proc.devRef .tc main_arg13)) = (m ((c : Thread nD τ).loc main_arg13)) := (W4_of_ne m ρ c main_arg13 (by decide)).trans (w3_arg13 m ρ c)
theorem w4_arg14 : W4 m ρ c (no_index (Proc.devRef .tc main_arg14)) = (m ((c : Thread nD τ).loc main_arg14)) := (W4_of_ne m ρ c main_arg14 (by decide)).trans (w3_arg14 m ρ c)
theorem w4_v3 : W4 m ρ c (no_index (Proc.devRef .tc main_v3)) = Cert.ReferenceIdeal.ReadP.val_main_v3 (F := Ideal) (m ((c : Thread nD τ).loc main_arg1)) := (W4_of_ne m ρ c main_v3 (by decide)).trans (w3_v3 m ρ c)
theorem w4_v6 : W4 m ρ c (no_index (Proc.devRef .tc main_v6)) = Cert.ReferenceIdeal.ReadP.val_main_v6 (F := Ideal) (m ((c : Thread nD τ).loc main_arg1)) := (W4_of_ne m ρ c main_v6 (by decide)).trans (w3_v6 m ρ c)
theorem w4_v30 : W4 m ρ c (no_index (Proc.devRef .tc main_v30)) = Cert.ReferenceIdeal.ReadP.val_main_v31 (F := Ideal) (m ((c : Thread nD τ).loc main_arg1)) := (W4_of_ne m ρ c main_v30 (by decide)).trans (w3_v30 m ρ c)

theorem W6_keep (b : Ref sig .tc) (hb : ∀ w, Pipeline.arrRef spec1 w ≠ b) :
    W6 m ρ c (no_index (Proc.devRef .tc b)) = W5 m ρ c (Proc.devRef .tc b) := W6_of_ne m ρ c b hb
theorem W8_keep (b : Ref sig .tc) (hb : ∀ w, Pipeline.arrRef spec2 w ≠ b) :
    W8 m ρ c (no_index (Proc.devRef .tc b)) = W7 m ρ c (Proc.devRef .tc b) := W8_of_ne m ρ c b hb

/-- Walk a buffer's contents back through host stretches and regions to the facts above. -/
macro "walk" : tactic =>
  `(tactic| simp (disch := decide) only [W5, W7, W9, W6_keep, W8_keep, StableHlo.after_cons, StableHlo.after_nil, StableHlo.nullary_result', StableHlo.unary_result', StableHlo.binary_result', StableHlo.ternary_result', StableHlo.quaternary_result', StableHlo.reshape_result', StableHlo.nullary_result_ne', StableHlo.unary_result_ne', StableHlo.binary_result_ne', StableHlo.ternary_result_ne', StableHlo.quaternary_result_ne', StableHlo.reshape_result_ne',
      w4_arg2, w4_arg4, w4_arg5, w4_arg6, w4_arg7, w4_arg8, w4_arg9, w4_arg10, w4_arg11, w4_arg12, w4_arg13, w4_arg14, w4_v3, w4_v6, w4_v30])

/-! ## The first region and the first aggregation -/

theorem w4_v31 : W4 m ρ c (Proc.devRef .tc main_v31) = (mm (m ((c : Thread nD τ).loc main_arg0)) (m ((c : Thread nD τ).loc main_arg3))) := by
  refine (W4_arr m ρ c 2).trans ?_
  refine (Cert.KernelIdeal.Region0.final (V3 m ρ) c).trans ?_
  show mm (W3 m ρ c (Proc.devRef .tc main_arg0)) (W3 m ρ c (Proc.devRef .tc main_arg3)) = _
  rw [w3_arg0, w3_arg3]

set_option maxHeartbeats 4000000 in
theorem w5_v43 : W5 m ρ c (Proc.devRef .tc main_v43) = (Cert.ReferenceIdeal.Regroup.agg (mm (m ((c : Thread nD τ).loc main_arg0)) (m ((c : Thread nD τ).loc main_arg3))) (m ((c : Thread nD τ).loc main_arg1))) := by
  walk
  rw [w4_v31]
  rfl

theorem w5_v44 (k : Fin 128) : W5 m ρ c (Proc.devRef .tc main_v44) (ix2 (0 : Fin 1) k) = (m ((c : Thread nD τ).loc main_arg4)) (ix1 k) := by
  walk
  exact shapeCast_a_1a_apply _ _ 0 k

theorem w5_arg5 : W5 m ρ c (Proc.devRef .tc main_arg5) = (m ((c : Thread nD τ).loc main_arg5)) := by walk

/-! ## The second region and the second aggregation -/

theorem w6_v45 : W6 m ρ c (Proc.devRef .tc main_v45) = (mm (biasRelu (Cert.ReferenceIdeal.Regroup.agg (mm (m ((c : Thread nD τ).loc main_arg0)) (m ((c : Thread nD τ).loc main_arg3))) (m ((c : Thread nD τ).loc main_arg1))) (m ((c : Thread nD τ).loc main_arg4))) (m ((c : Thread nD τ).loc main_arg5))) := by
  refine (W6_arr m ρ c 3).trans ?_
  refine (Cert.KernelIdeal.Region1.final (V5 m ρ) c (m ((c : Thread nD τ).loc main_arg4)) (fun k => w5_v44 m ρ c k)).trans ?_
  show mm (biasRelu (W5 m ρ c (Proc.devRef .tc main_v43)) (m ((c : Thread nD τ).loc main_arg4))) (W5 m ρ c (Proc.devRef .tc main_arg5)) = _
  rw [w5_v43, w5_arg5]

set_option maxHeartbeats 4000000 in
theorem w7_v57 : W7 m ρ c (Proc.devRef .tc main_v57) = (Cert.ReferenceIdeal.Regroup.agg (mm (biasRelu (Cert.ReferenceIdeal.Regroup.agg (mm (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) := by
  walk
  rw [w6_v45]
  rfl

theorem w7_v58 (k : Fin 128) : W7 m ρ c (Proc.devRef .tc main_v58) (ix2 (0 : Fin 1) k) = (m ((c : Thread nD τ).loc main_arg6)) (ix1 k) := by
  walk
  exact shapeCast_a_1a_apply _ _ 0 k

theorem w7_arg7 : W7 m ρ c (Proc.devRef .tc main_arg7) = (m ((c : Thread nD τ).loc main_arg7)) := by walk

/-! ## The third region, the third aggregation, the pooled mean -/

theorem w8_v59 : W8 m ρ c (Proc.devRef .tc main_v59) = (mm (biasRelu (Cert.ReferenceIdeal.Regroup.agg (mm (biasRelu (Cert.ReferenceIdeal.Regroup.agg (mm (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6))) (m ((c : Thread nD τ).loc main_arg7))) := by
  refine (W8_arr m ρ c 3).trans ?_
  refine (Cert.KernelIdeal.Region2.final (V7 m ρ) c (m ((c : Thread nD τ).loc main_arg6)) (fun k => w7_v58 m ρ c k)).trans ?_
  show mm (biasRelu (W7 m ρ c (Proc.devRef .tc main_v57)) (m ((c : Thread nD τ).loc main_arg6))) (W7 m ρ c (Proc.devRef .tc main_arg7)) = _
  rw [w7_v57, w7_arg7]

set_option maxHeartbeats 8000000 in
theorem w9_v86 : W9 m ρ c (Proc.devRef .tc main_v86) = (Cert.ReferenceIdeal.Regroup.pool (Cert.ReferenceIdeal.Regroup.agg (mm (biasRelu (Cert.ReferenceIdeal.Regroup.agg (mm (biasRelu (Cert.ReferenceIdeal.Regroup.agg (mm (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6))) (m ((c : Thread nD τ).loc main_arg7))) (m ((c : Thread nD τ).loc main_arg1))) (m ((c : Thread nD τ).loc main_arg8)) (m ((c : Thread nD τ).loc main_arg2))) := by
  walk
  rw [w8_v59]
  rfl

theorem w9_v87 (k : Fin 128) : W9 m ρ c (Proc.devRef .tc main_v87) (ix2 (0 : Fin 1) k) = (m ((c : Thread nD τ).loc main_arg10)) (ix1 k) := by
  walk
  exact shapeCast_a_1a_apply _ _ 0 k

theorem w9_v88 (k : Fin 128) : W9 m ρ c (Proc.devRef .tc main_v88) (ix2 (0 : Fin 1) k) = (m ((c : Thread nD τ).loc main_arg12)) (ix1 k) := by
  walk
  exact shapeCast_a_1a_apply _ _ 0 k

theorem w9_v89 (k : Fin 1) : W9 m ρ c (Proc.devRef .tc main_v89) (ix2 (0 : Fin 1) k) = (m ((c : Thread nD τ).loc main_arg14)) (ix1 k) := by
  walk
  exact shapeCast_a_1a_apply _ _ 0 k

theorem w9_arg9 : W9 m ρ c (Proc.devRef .tc main_arg9) = (m ((c : Thread nD τ).loc main_arg9)) := by walk
theorem w9_arg11 : W9 m ρ c (Proc.devRef .tc main_arg11) = (m ((c : Thread nD τ).loc main_arg11)) := by walk
theorem w9_arg13 : W9 m ρ c (Proc.devRef .tc main_arg13) = (m ((c : Thread nD τ).loc main_arg13)) := by walk

/-! ## The decoder region: the result -/

/-- THE KERNEL PROGRAM'S RESULT buffer after the run, as one function of the arguments as launched. -/
theorem w10_v90 : W10 m ρ c (Proc.devRef .tc main_v90) = (Cert.KernelIdeal.Region3.dec (Cert.ReferenceIdeal.Regroup.pool (Cert.ReferenceIdeal.Regroup.agg (mm (biasRelu (Cert.ReferenceIdeal.Regroup.agg (mm (biasRelu (Cert.ReferenceIdeal.Regroup.agg (mm (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6))) (m ((c : Thread nD τ).loc main_arg7))) (m ((c : Thread nD τ).loc main_arg1))) (m ((c : Thread nD τ).loc main_arg8)) (m ((c : Thread nD τ).loc main_arg2))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W10_arr m ρ c 7).trans ?_
  refine (Cert.KernelIdeal.Region3.final (V9 m ρ) c (m ((c : Thread nD τ).loc main_arg10)) (m ((c : Thread nD τ).loc main_arg12)) (m ((c : Thread nD τ).loc main_arg14)) (fun k => w9_v87 m ρ c k) (fun k => w9_v88 m ρ c k) (fun k => w9_v89 m ρ c k)).trans ?_
  show Cert.KernelIdeal.Region3.dec (W9 m ρ c (Proc.devRef .tc main_v86)) (W9 m ρ c (Proc.devRef .tc main_arg9)) _ (W9 m ρ c (Proc.devRef .tc main_arg11)) _ (W9 m ρ c (Proc.devRef .tc main_arg13)) _ = _
  rw [w9_v86, w9_arg9, w9_arg11, w9_arg13]

end Cert.KernelIdeal.Chain

end
-- ==== Proof.lean ====
/-
  Three graph-convolution layers, a per-graph mean and a small decoder: the tiled kernel program against its plain
  reference, over the extended reals.

  Both programs compute, from node features x, an edge list, graph ids and the weights,
    h₁ = agg (x·W₁),  h₂ = agg (max (h₁ + b₁) 0 · W₂),  h₃ = agg (max (h₂ + b₂) 0 · W₄),
    g = mean per graph of (h₃ + b₄),  out = (max (max (g·Wd₁ + bd₁) 0 · Wd₂ + bd₂) 0)·Wo + bo,
  where `agg` gathers rows by source node, scales them by the symmetric degree normalisation and scatter-adds them by
  destination node. The kernel program does the four dense steps in tiled regions (ten row blocks of 10000 rows for the
  three layer products, one block for the decoder), its operands passed through a change of float format that is the
  identity over the extended reals and its products accumulated from zero; everything else is the same host operations
  in both programs. A row block of a product is the product of the row block, bias and clamp act entry by entry, and a
  product into a zero accumulator is the plain sum over the contracted axis, so the two results are the same function of
  the arguments, entry by entry. No distributivity or cancellation is used, so the finiteness of the inputs is not needed.
  The idealisation rewrote nothing, so its conjunct is trivial. The frames of the two kernel programs are the generated
  ones; the reference's frame is its run with the result dropped.
-/
import proofs.«134059_j50757923504707_1_alg».proof.Defs
import proofs.«134059_j50757923504707_1_alg».proof.Proof.Gen.Kernel
import proofs.«134059_j50757923504707_1_alg».proof.Proof.Gen.Kernel.Skeleton
import proofs.«134059_j50757923504707_1_alg».proof.Proof.Gen.Kernel.Launch
import proofs.«134059_j50757923504707_1_alg».proof.Proof.Gen.Kernel.Points
import proofs.«134059_j50757923504707_1_alg».proof.Proof.Gen.Kernel.Frame
import proofs.«134059_j50757923504707_1_alg».proof.Proof.Gen.KernelIdeal
import proofs.«134059_j50757923504707_1_alg».proof.Proof.Gen.KernelIdeal.Skeleton
import proofs.«134059_j50757923504707_1_alg».proof.Proof.Gen.KernelIdeal.Launch
import proofs.«134059_j50757923504707_1_alg».proof.Proof.Gen.KernelIdeal.Points
import proofs.«134059_j50757923504707_1_alg».proof.Proof.Gen.KernelIdeal.Frame
import proofs.«134059_j50757923504707_1_alg».proof.Proof.Gen.ReferenceIdeal
import proofs.«134059_j50757923504707_1_alg».proof.Proof.Gen.Pre_finite_inputs
import proofs.«134059_j50757923504707_1_alg».proof.Proof.KRun
import proofs.«134059_j50757923504707_1_alg».proof.Proof.KVals
import proofs.«134059_j50757923504707_1_alg».proof.Proof.RefRun
import proofs.«134059_j50757923504707_1_alg».proof.Proof.RefRead
import proofs.«134059_j50757923504707_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals both programs end with the same result: the kernel program's result buffer is the decoder
    of the pooled third aggregation (read boundary by boundary), the reference's is the same term regrouped, and the two
    launch memories agree on the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v90), Cert.KernelIdeal.Run.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v108 m' c = Cert.KernelIdeal.Gen.W10 m ρ c (Proc.devRef .tc Cert.KernelIdeal.main_v90)
  obtain ⟨h0, h1, h2, h3, h4, h5, h6, h7, h8, h9, h10, h11, h12, h13, h14⟩ := hagree c
  rw [Cert.ReferenceIdeal.ReadP.val_main_v108_eq, Cert.ReferenceIdeal.Regroup.out_eq, Cert.KernelIdeal.Chain.w10_v90,
    h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
